-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S257x512 : Shape := ⟨2, ![257, 512]⟩
abbrev S513x512 : Shape := ⟨2, ![513, 512]⟩
abbrev S513x256 : Shape := ⟨2, ![513, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S257x512 : S_.BroadcastsInDim S257x512 (![] : Fin 0 → Fin S257x512.rank)
  reducesTo_S257x512_S_d0_1 : S257x512.ReducesTo [0, 1] S_
  bcast_S_S513x512 : S_.BroadcastsInDim S513x512 (![] : Fin 0 → Fin S513x512.rank)
  reducesTo_S513x512_S_d0_1 : S513x512.ReducesTo [0, 1] S_
  bcast_S_S513x256 : S_.BroadcastsInDim S513x256 (![] : Fin 0 → Fin S513x256.rank)
  reducesTo_S513x256_S_d0_1 : S513x256.ReducesTo [0, 1] S_

variable [Facts]

def fn_part1 {F : FTy → Type} [FloatOps F] (main_v13 : IVec S_ 1) (main_v16 : IVec S513x256 1) : IVec S_ 1 :=
  let main_c_5 : IVec S_ 1 := constantI S_ 1 1#1
  let main_v17 : IVec S_ 1 := (fun x v => Host.reduce IntOp.andi x v reducesTo_S513x256_S_d0_1 h_S_) main_v16 main_c_5
  let main_v18 : IVec S_ 1 := andi main_v13 main_v17
  main_v18

def fn {F : FTy → Type} [FloatOps F] (main_arg0 : FVec F S16384x256 .f32) (main_arg1 : FVec F S257x512 .f32) (main_arg2 : FVec F S513x512 .f32) (main_arg3 : FVec F S513x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S257x512 .f32 := Host.absf main_arg1
  let main_cst_0 : FVec F S_ .f32 := constant S_ .f32 0x7F800000#32
  let main_v5 : FVec F S257x512 .f32 := broadcastInDim S257x512 ![] bcast_S_S257x512 main_cst_0
  let main_v6 : IVec S257x512 1 := cmpf .olt main_v4 main_v5
  let main_c_1 : IVec S_ 1 := constantI S_ 1 1#1
  let main_v7 : IVec S_ 1 := (fun x v => Host.reduce IntOp.andi x v reducesTo_S257x512_S_d0_1 h_S_) main_v6 main_c_1
  let main_v8 : IVec S_ 1 := andi main_v3 main_v7
  let main_v9 : FVec F S513x512 .f32 := Host.absf main_arg2
  let main_cst_2 : FVec F S_ .f32 := constant S_ .f32 0x7F800000#32
  let main_v10 : FVec F S513x512 .f32 := broadcastInDim S513x512 ![] bcast_S_S513x512 main_cst_2
  let main_v11 : IVec S513x512 1 := cmpf .olt main_v9 main_v10
  let main_c_3 : IVec S_ 1 := constantI S_ 1 1#1
  let main_v12 : IVec S_ 1 := (fun x v => Host.reduce IntOp.andi x v reducesTo_S513x512_S_d0_1 h_S_) main_v11 main_c_3
  let main_v13 : IVec S_ 1 := andi main_v8 main_v12
  let main_v14 : FVec F S513x256 .f32 := Host.absf main_arg3
  let main_cst_4 : FVec F S_ .f32 := constant S_ .f32 0x7F800000#32
  let main_v15 : FVec F S513x256 .f32 := broadcastInDim S513x256 ![] bcast_S_S513x256 main_cst_4
  let main_v16 : IVec S513x256 1 := cmpf .olt main_v14 main_v15
  fn_part1 (F := F) main_v13 main_v16
-- ==== Kernel.lean ====
abbrev S16384x256 : Shape := ⟨2, ![16384, 256]⟩
abbrev S257x512 : Shape := ⟨2, ![257, 512]⟩
abbrev S513x512 : Shape := ⟨2, ![513, 512]⟩
abbrev S513x256 : Shape := ⟨2, ![513, 256]⟩
abbrev S16384x128 : Shape := ⟨2, ![16384, 128]⟩
abbrev S4096x256 : Shape := ⟨2, ![4096, 256]⟩
abbrev S4096x128 : Shape := ⟨2, ![4096, 128]⟩
abbrev S256x512 : Shape := ⟨2, ![256, 512]⟩
abbrev S4096x512 : Shape := ⟨2, ![4096, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S257x512, .f32⟩
  | .hbm, ⟨2, _⟩ => ⟨S513x512, .f32⟩
  | .hbm, ⟨3, _⟩ => ⟨S513x256, .f32⟩
  | .hbm, ⟨4, _⟩ => ⟨S16384x128, .f32⟩
  | .hbm, ⟨5, _⟩ => ⟨S16384x128, .f32⟩
  | .local _ .vmem, ⟨0, _⟩ => ⟨S4096x256, .f32⟩
  | .local _ .vmem, ⟨1, _⟩ => ⟨S4096x256, .f32⟩
  | .local _ .vmem, ⟨2, _⟩ => ⟨S257x512, .f32⟩
  | .local _ .vmem, ⟨3, _⟩ => ⟨S513x512, .f32⟩
  | .local _ .vmem, ⟨4, _⟩ => ⟨S513x256, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S257x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S513x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S513x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S257x512_S256x512_0_0 : ∀ a, (![0, 0] : Fin 2 → Nat) a + S256x512.size a ≤ S257x512.size a
  h_S256x512 : 0 < S256x512.numel
  inb_S257x512_S1x512_256_0 : ∀ a, (![256, 0] : Fin 2 → Nat) a + S1x512.size a ≤ S257x512.size a
  h_S1x512 : 0 < S1x512.numel
  broadcasts_S1x512_S4096x512 : S1x512.Broadcasts S4096x512
  inb_S513x512_S512x512_0_0 : ∀ a, (![0, 0] : Fin 2 → Nat) a + S512x512.size a ≤ S513x512.size a
  h_S512x512 : 0 < S512x512.numel
  inb_S513x512_S1x512_512_0 : ∀ a, (![512, 0] : Fin 2 → Nat) a + S1x512.size a ≤ S513x512.size a
  inb_S513x256_S512x256_0_0 : ∀ a, (![0, 0] : Fin 2 → Nat) a + S512x256.size a ≤ S513x256.size a
  h_S512x256 : 0 < S512x256.numel
  inb_S513x256_S1x256_512_0 : ∀ a, (![512, 0] : Fin 2 → Nat) a + S1x256.size a ≤ S513x256.size a
  h_S1x256 : 0 < S1x256.numel
  broadcasts_S1x256_S4096x256 : S1x256.Broadcasts S4096x256
  slices_S4096x256_o0_0_S4096x128 : S4096x256.Slices ![0, 0] S4096x128
  inb_S4096x128_S4096x128_0_0 : ∀ a, (![0, 0] : Fin 2 → Nat) a + S4096x128.size a ≤ S4096x128.size a
  h_S4096x128 : 0 < S4096x128.numel
  slices_S4096x256_o0_128_S4096x128 : S4096x256.Slices ![0, 128] S4096x128
  dot_S4096x256_S256x512_S4096x512_1_0_0_1_n_n_wf : DotDims.WF S4096x256 S256x512 S4096x512 [1] [0] [0] [1] [] []
  dot_S4096x512_S512x512_S4096x512_1_0_0_1_n_n_wf : DotDims.WF S4096x512 S512x512 S4096x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S257x512.size a ≤ S257x512.size a
  hwx0_1 : ∀ i : grid0.Coords, EltTy.bits .f32 = 32 ∨ (Rect.block (s := S257x512) S257x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x512.size a ≤ S513x512.size a
  hwx0_2 : ∀ i : grid0.Coords, EltTy.bits .f32 = 32 ∨ (Rect.block (s := S513x512) S513x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513x256.size a ≤ S513x256.size a
  hwx0_3 : ∀ i : grid0.Coords, EltTy.bits .f32 = 32 ∨ (Rect.block (s := S513x256) S513x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S16384x128.size a
  hwx0_4 : ∀ i : grid0.Coords, EltTy.bits .f32 = 32 ∨ (Rect.block (s := S16384x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S16384x128.size a
  hwx0_5 : ∀ i : grid0.Coords, EltTy.bits .f32 = 32 ∨ (Rect.block (s := S16384x128) S4096x128.size (cc0_transform_5 i) (hinb0_5 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S257x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S513x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S513x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S257x512 : Shape := ⟨2, ![257, 512]⟩
abbrev S513x512 : Shape := ⟨2, ![513, 512]⟩
abbrev S513x256 : Shape := ⟨2, ![513, 256]⟩
abbrev S16384x128 : Shape := ⟨2, ![16384, 128]⟩
abbrev S512x256 : Shape := ⟨2, ![512, 256]⟩
abbrev S256x512 : Shape := ⟨2, ![256, 512]⟩
abbrev S512x512 : Shape := ⟨2, ![512, 512]⟩
abbrev S1x512 : Shape := ⟨2, ![1, 512]⟩
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S257x512, .f32⟩
  | .hbm, ⟨2, _⟩ => ⟨S513x512, .f32⟩
  | .hbm, ⟨3, _⟩ => ⟨S513x256, .f32⟩
  | .hbm, ⟨4, _⟩ => ⟨S16384x256, .f32⟩
  | .hbm, ⟨5, _⟩ => ⟨S16384x128, .f32⟩
  | .hbm, ⟨6, _⟩ => ⟨S16384x128, .f32⟩
  | .local _ .vmem, ⟨0, _⟩ => ⟨S512x256, .f32⟩
  | .local _ .vmem, ⟨1, _⟩ => ⟨S512x256, .f32⟩
  | .local _ .vmem, ⟨2, _⟩ => ⟨S257x512, .f32⟩
  | .local _ .vmem, ⟨3, _⟩ => ⟨S513x512, .f32⟩
  | .local _ .vmem, ⟨4, _⟩ => ⟨S513x256, .f32⟩
  | .local _ .vmem, ⟨5, _⟩ => ⟨S512x256, .f32⟩
  | .local _ .vmem, ⟨6, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S257x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S513x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S513x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16384x256_S16384x128_0_0 : S16384x256.Slices ![0, 0] S16384x128
  slices_S16384x256_S16384x128_0_128 : S16384x256.Slices ![0, 128] S16384x128
  inb_S512x256_S512x256_0_0 : ∀ a, (![0, 0] : Fin 2 → Nat) a + S512x256.size a ≤ S512x256.size a
  h_S512x256 : 0 < S512x256.numel
  inb_S257x512_S256x512_0_0 : ∀ a, (![0, 0] : Fin 2 → Nat) a + S256x512.size a ≤ S257x512.size a
  h_S256x512 : 0 < S256x512.numel
  inb_S257x512_S1x512_256_0 : ∀ a, (![256, 0] : Fin 2 → Nat) a + S1x512.size a ≤ S257x512.size a
  h_S1x512 : 0 < S1x512.numel
  broadcasts_S1x512_S512x512 : S1x512.Broadcasts S512x512
  inb_S513x512_S512x512_0_0 : ∀ a, (![0, 0] : Fin 2 → Nat) a + S512x512.size a ≤ S513x512.size a
  h_S512x512 : 0 < S512x512.numel
  inb_S513x512_S1x512_512_0 : ∀ a, (![512, 0] : Fin 2 → Nat) a + S1x512.size a ≤ S513x512.size a
  inb_S513x256_S512x256_0_0 : ∀ a, (![0, 0] : Fin 2 → Nat) a + S512x256.size a ≤ S513x256.size a
  inb_S513x256_S1x256_512_0 : ∀ a, (![512, 0] : Fin 2 → Nat) a + S1x256.size a ≤ S513x256.size a
  h_S1x256 : 0 < S1x256.numel
  broadcasts_S1x256_S512x256 : S1x256.Broadcasts S512x256
  iota_S512x256_d1_w32 : S512x256.Iotas .tc 32 [1]
  dot_S512x256_S256x512_S512x512_1_0_0_1_n_n_wf : DotDims.WF S512x256 S256x512 S512x512 [1] [0] [0] [1] [] []
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S257x512.size a ≤ S257x512.size a
  hwx0_1 : ∀ i : grid0.Coords, EltTy.bits .f32 = 32 ∨ (Rect.block (s := S257x512) S257x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x512.size a ≤ S513x512.size a
  hwx0_2 : ∀ i : grid0.Coords, EltTy.bits .f32 = 32 ∨ (Rect.block (s := S513x512) S513x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513x256.size a ≤ S513x256.size a
  hwx0_3 : ∀ i : grid0.Coords, EltTy.bits .f32 = 32 ∨ (Rect.block (s := S513x256) S513x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .f32 = 32 ∨ (Rect.block (s := S16384x256) S512x256.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S257x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S513x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S513x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«122329_g2000406044886496_pallasbulk_952_17_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«122329_g2000406044886496_pallasbulk_952_17_alg».proof.Proof.LibMatmulPlain
import proofs.«122329_g2000406044886496_pallasbulk_952_17_alg».proof.Proof.LibDotGeneralPlain
import proofs.«122329_g2000406044886496_pallasbulk_952_17_alg».proof.Proof.LibHostBroadcast
import proofs.«122329_g2000406044886496_pallasbulk_952_17_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.LibRowBlockDense.lean ====
/-
  Row blocks through the operations of a dense layer computed blockwise on both sides.

  With `RowBlk r x X` (the M×K matrix `x` is rows r, …, r+M-1 of the M'×K matrix `X`): the product of `x` with a
  shared K×N matrix, accumulated from the zero matrix, is the same row block of the product of `X` with that matrix
  accumulated the same way — entry (p, q) of either is the sum over k of row entries times the shared column, and
  the rows agree; a bias row [1,N] spread over the M rows of the block is the row block of the same row spread over
  the M' rows; and a maximum or minimum against one splatted scalar acts entry by entry. Over the extended reals where
  a sum is read; generic in the extents.
-/
import proofs.«122329_g2000406044886496_pallasbulk_952_17_alg».proof.Proof.LibRowBlock

noncomputable section

open scoped BigOperators

namespace Cert.LibRowBlock.RowBlk

open Idealize.ShloMosaic Idealize.ShloMosaic.ValueIdx

variable {M M' N K : ℕ} {r : ℕ}

/-- The product of a row block with a shared matrix, from the zero accumulator, is the row block of the product of
    the whole matrix with the shared one, from the zero accumulator. -/
theorem matmul_matmul {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.matmul D' prec' X w (constant (F := Ideal) ⟨2, ![M', N]⟩ .f32 0x00000000#32)) := fun p q h => by
  rw [Cert.LibMatmulPlain.matmul_plain_zero_apply D hD, Cert.LibMatmulPlain.matmul_plain_zero_apply D' hD']
  exact Finset.sum_congr rfl fun k _ => by rw [hx p k h]

/-- A bias row spread over the rows of a block and over the rows of the whole matrix. -/
theorem rowBiasTo {α : Type} (b : (⟨2, ![1, N]⟩ : Shape).Idx → α) (hb : (⟨2, ![1, N]⟩ : Shape).Broadcasts ⟨2, ![M, N]⟩)
    (hB : (⟨2, ![1, N]⟩ : Shape).Broadcasts ⟨2, ![M', N]⟩) :
    RowBlk r (broadcastTo ⟨2, ![M, N]⟩ b hb) (broadcastTo ⟨2, ![M', N]⟩ b hB) := fun p q h => by
  rw [broadcastTo_1b_ab_apply, broadcastTo_1b_ab_apply]

/-- The sum of two row blocks, entry by entry. -/
theorem addf {φ : FTy} {x y : FVec Ideal ⟨2, ![M, N]⟩ φ} {X Y : FVec Ideal ⟨2, ![M', N]⟩ φ} (hx : RowBlk r x X) (hy : RowBlk r y Y) :
    RowBlk r (Idealize.ShloMosaic.addf x y) (Idealize.ShloMosaic.addf X Y) :=
  map₂ (fun a b => FloatOps.addf a b) hx hy

/-- The maximum of a row block with one splatted scalar, entry by entry. -/
theorem maximumf_splat {φ : FTy} {x : FVec Ideal ⟨2, ![M, N]⟩ φ} {X : FVec Ideal ⟨2, ![M', N]⟩ φ} (s : Ideal φ) (hx : RowBlk r x X) :
    RowBlk r (Idealize.ShloMosaic.maximumf x (broadcast ⟨2, ![M, N]⟩ s)) (Idealize.ShloMosaic.maximumf X (broadcast ⟨2, ![M', N]⟩ s)) :=
  map₁ (fun a => FloatOps.maximumf a s) hx

end Cert.LibRowBlock.RowBlk

end
-- ==== Proof.ActorSpec.lean ====
/-
  The actor network as one function of its arguments.

  A batch of M states (rows of an M×256 matrix x) goes through two dense layers with a rectifier and a third dense
  layer without one:
      h₁ = max(x·w₁ + b₁, 0),   h₂ = max(h₁·w₂ + b₂, 0),   head = h₂·w_h + b_h,
  every product accumulated from the zero matrix, every bias a single row spread over the M rows. Each row of the
  result depends on the same row of x only, so the network of a block of rows is that block of rows of the network
  of the whole batch (`head_rowBlk`). The weights arrive packed: the bias is the last row of each packed matrix
  (`w1Of`, `b1Of`, …). The two results are the first 128 columns of the head as they are (`muAll`) and the last 128
  columns clamped to [-20, 2] (`sigmaAll`).
-/
import proofs.«122329_g2000406044886496_pallasbulk_952_17_alg».proof.Proof.LibRowBlockDense
import Idealize.ShloMosaic.Lib.Pipeline.FrameBody

noncomputable section

namespace Cert.Actor

open Idealize.ShloMosaic Idealize.ShloMosaic.ValueIdx Cert.LibRowBlock

/-- An a×b matrix's shape. -/
abbrev Sh (a b : ℕ) : Shape := ⟨2, ![a, b]⟩

/-- A single row spreads over any number of rows. -/
theorem rowSpreads (M N : ℕ) : (Sh 1 N).Broadcasts (Sh M N) :=
  ⟨le_refl _, fun a => by
    match a with
    | ⟨0, _⟩ => exact Or.inl rfl
    | ⟨1, _⟩ => exact Or.inr fun _ => rfl⟩

/-- One dense layer: the product with the weights from the zero matrix, plus the bias row on every row. -/
def dense (M K N : ℕ) (x : FVec Ideal (Sh M K) .f32) (w : FVec Ideal (Sh K N) .f32) (b : FVec Ideal (Sh 1 N) .f32) :
    FVec Ideal (Sh M N) .f32 :=
  addf (FloatOps.matmul (DotDims.plain M K N) none x w (constant (F := Ideal) (Sh M N) .f32 0x00000000#32))
    (broadcastTo (Sh M N) b (rowSpreads M N))

/-- The rectifier: the maximum with zero, entry by entry. -/
def relu (M N : ℕ) (v : FVec Ideal (Sh M N) .f32) : FVec Ideal (Sh M N) .f32 :=
  maximumf v (broadcast (Sh M N) (Scalar.ofBits (F := Ideal) .f32 0x00000000#32))

/-- The network's head for a batch of M rows. -/
def head (M : ℕ) (x : FVec Ideal (Sh M 256) .f32) (w1 : FVec Ideal (Sh 256 512) .f32) (b1 : FVec Ideal (Sh 1 512) .f32)
    (w2 : FVec Ideal (Sh 512 512) .f32) (b2 : FVec Ideal (Sh 1 512) .f32) (wh : FVec Ideal (Sh 512 256) .f32)
    (bh : FVec Ideal (Sh 1 256) .f32) : FVec Ideal (Sh M 256) .f32 :=
  dense M 512 256 (relu M 512 (dense M 512 512 (relu M 512 (dense M 256 512 x w1 b1)) w2 b2)) wh bh

/-- A dense layer takes row blocks to row blocks. -/
theorem dense_rowBlk {M M' K N r : ℕ} {x : FVec Ideal (Sh M K) .f32} {X : FVec Ideal (Sh M' K) .f32} (hx : RowBlk r x X)
    (w : FVec Ideal (Sh K N) .f32) (b : FVec Ideal (Sh 1 N) .f32) : RowBlk r (dense M K N x w b) (dense M' K N X w b) :=
  RowBlk.addf (RowBlk.matmul_matmul _ rfl _ rfl none none w hx) (RowBlk.rowBiasTo b _ _)

/-- The rectifier takes row blocks to row blocks. -/
theorem relu_rowBlk {M M' N r : ℕ} {v : FVec Ideal (Sh M N) .f32} {V : FVec Ideal (Sh M' N) .f32} (hv : RowBlk r v V) :
    RowBlk r (relu M N v) (relu M' N V) :=
  RowBlk.maximumf_splat _ hv

/-- The head of a block of rows is that block of rows of the head of the whole batch. -/
theorem head_rowBlk {M M' r : ℕ} {x : FVec Ideal (Sh M 256) .f32} {X : FVec Ideal (Sh M' 256) .f32} (hx : RowBlk r x X)
    (w1 : FVec Ideal (Sh 256 512) .f32) (b1 : FVec Ideal (Sh 1 512) .f32) (w2 : FVec Ideal (Sh 512 512) .f32)
    (b2 : FVec Ideal (Sh 1 512) .f32) (wh : FVec Ideal (Sh 512 256) .f32) (bh : FVec Ideal (Sh 1 256) .f32) :
    RowBlk r (head M x w1 b1 w2 b2 wh bh) (head M' X w1 b1 w2 b2 wh bh) :=
  dense_rowBlk (relu_rowBlk (dense_rowBlk (relu_rowBlk (dense_rowBlk hx w1 b1)) w2 b2)) wh bh

/-! ## The packed weights -/

/-- Rows 0 … 255 of the first packed matrix: the first layer's weights. -/
abbrev rectW1 : Rect (Sh 257 512) := Rect.unit (s := Sh 257 512) ![0, 0] (Sh 256 512).size (by decide)
/-- Row 256 of the first packed matrix: the first layer's bias. -/
abbrev rectB1 : Rect (Sh 257 512) := Rect.unit (s := Sh 257 512) ![256, 0] (Sh 1 512).size (by decide)
/-- Rows 0 … 511 of the second packed matrix: the second layer's weights. -/
abbrev rectW2 : Rect (Sh 513 512) := Rect.unit (s := Sh 513 512) ![0, 0] (Sh 512 512).size (by decide)
/-- Row 512 of the second packed matrix: the second layer's bias. -/
abbrev rectB2 : Rect (Sh 513 512) := Rect.unit (s := Sh 513 512) ![512, 0] (Sh 1 512).size (by decide)
/-- Rows 0 … 511 of the third packed matrix: the head's weights. -/
abbrev rectWh : Rect (Sh 513 256) := Rect.unit (s := Sh 513 256) ![0, 0] (Sh 512 256).size (by decide)
/-- Row 512 of the third packed matrix: the head's bias. -/
abbrev rectBh : Rect (Sh 513 256) := Rect.unit (s := Sh 513 256) ![512, 0] (Sh 1 256).size (by decide)

/-- The head of the whole batch of 16384 states, from the packed weights. -/
def headAll (X : Vec Ideal (Sh 16384 256) .f32) (W1 : Vec Ideal (Sh 257 512) .f32) (W2 : Vec Ideal (Sh 513 512) .f32)
    (Wh : Vec Ideal (Sh 513 256) .f32) : FVec Ideal (Sh 16384 256) .f32 :=
  head 16384 X (View.ld (Val := Elt Ideal) (e' := .f32) W1 rectW1) (View.ld (Val := Elt Ideal) (e' := .f32) W1 rectB1)
    (View.ld (Val := Elt Ideal) (e' := .f32) W2 rectW2) (View.ld (Val := Elt Ideal) (e' := .f32) W2 rectB2)
    (View.ld (Val := Elt Ideal) (e' := .f32) Wh rectWh) (View.ld (Val := Elt Ideal) (e' := .f32) Wh rectBh)

/-- Column q of the 128 mean columns is column q of the head. -/
abbrev muCol (i : (Sh 16384 128).Idx) : (Sh 16384 256).Idx := ix2 (i 0) ⟨(i 1).val, Nat.lt_of_lt_of_le (i 1).isLt (by decide)⟩
/-- Column q of the 128 log-deviation columns is column 128 + q of the head. -/
abbrev sigmaCol (i : (Sh 16384 128).Idx) : (Sh 16384 256).Idx :=
  ix2 (i 0) ⟨(i 1).val + 128, Nat.add_lt_add_right (i 1).isLt 128⟩

/-- The means: the head's first 128 columns. -/
def muAll (X : Vec Ideal (Sh 16384 256) .f32) (W1 : Vec Ideal (Sh 257 512) .f32) (W2 : Vec Ideal (Sh 513 512) .f32)
    (Wh : Vec Ideal (Sh 513 256) .f32) : Vec Ideal (Sh 16384 128) .f32 := fun i => headAll X W1 W2 Wh (muCol i)

/-- The log-deviations: the head's last 128 columns, clamped to [-20, 2]. -/
def sigmaAll (X : Vec Ideal (Sh 16384 256) .f32) (W1 : Vec Ideal (Sh 257 512) .f32) (W2 : Vec Ideal (Sh 513 512) .f32)
    (Wh : Vec Ideal (Sh 513 256) .f32) : Vec Ideal (Sh 16384 128) .f32 := fun i =>
  FloatOps.minimumf (Scalar.ofBits (F := Ideal) .f32 0x40000000#32)
    (FloatOps.maximumf (Scalar.ofBits (F := Ideal) .f32 0xC1A00000#32) (headAll X W1 W2 Wh (sigmaCol i)))

end Cert.Actor

end
-- ==== Proof.KernelBlocks.lean ====
/-
  What the kernel's two result arrays hold after its run: the means and the clamped log-deviations of the whole batch.

  The grid has four points; point t works on rows 4096·t … 4096·t + 4095 of the states and on the three packed
  weight matrices whole. What it leaves in its two output blocks is the head of its 4096 rows — columns 0 … 127 as
  they are, columns 128 … 255 clamped — and the head of a block of rows is that block of rows of the head of the
  whole batch. The four blocks of each output tile its 16384 rows, so each array ends as one function of the
  arguments.
-/
import proofs.«122329_g2000406044886496_pallasbulk_952_17_alg».proof.Proof.Gen.KernelIdeal.Value
import proofs.«122329_g2000406044886496_pallasbulk_952_17_alg».proof.Proof.ActorSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.Actor Cert.LibRowBlock

variable (m : (ℓ : Loc nD τ sig) → Buf (Elt Ideal) ℓ) (ρ : Dev nD → PrngReg)

theorem zeroOff : (![0, 0] : Fin 2 → Nat) = fun _ => 0 := funext fun a => by fin_cases a <;> rfl

/-- The body's value before the two slices is the head of the block's 4096 rows: a change of float format is the
    identity on the extended reals. -/
theorem pay_head (v0 : Vec Ideal S4096x256 .f32) (v2 : Vec Ideal S256x512 .f32) (v5 : Vec Ideal S1x512 .f32)
    (v11 : Vec Ideal S512x512 .f32) (v14 : Vec Ideal S1x512 .f32) (v20 : Vec Ideal S512x256 .f32) (v23 : Vec Ideal S1x256 .f32) :
    k0_pay1 (F := Ideal) v0 v2 v5 v11 v14 v20 v23 = head 4096 v0 v2 v5 v11 v14 v20 v23 := rfl

/-- Where each window's block sits at grid point t: the states' and the results' blocks at block row t, the packed
    weights at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The states' block at point t is rows 4096·t … of the states. -/
theorem states_block (c : Dev nD) (t : Fin cfg0.N) :
    RowBlk (4096 * t.val) (iblk m c 0 t : Vec Ideal S4096x256 .f32) (m ((c : Thread nD τ).loc main_arg0) : Vec Ideal S16384x256 .f32) := by
  obtain ⟨e0, e1, -⟩ := block_index t
  intro p q h
  unfold iblk
  rw [View.read_apply]
  show V m c main_arg0 _ = m ((c : Thread nD τ).loc main_arg0) _
  unfold V
  refine congrArg _ (funext fun a => Fin.ext ?_)
  match a with
  | ⟨0, _⟩ => show win0_0.index t (0 : Fin 2) * 4096 + 1 * p.val = 4096 * t.val + p.val; rw [e0]; omega
  | ⟨1, _⟩ => show win0_0.index t (1 : Fin 2) * 256 + 1 * q.val = q.val; rw [e1]; omega

/-- The first packed matrix's block at any point is the matrix. -/
theorem packed1_block (c : Dev nD) (t : Fin cfg0.N) :
    (iblk m c 1 t : Vec Ideal S257x512 .f32) = m ((c : Thread nD τ).loc main_arg1) := by
  obtain ⟨-, -, e0, e1, -⟩ := block_index t
  funext j
  unfold iblk
  rw [View.read_apply]
  show V m c main_arg1 _ = m ((c : Thread nD τ).loc main_arg1) _
  unfold V
  refine congrArg _ (funext fun a => Fin.ext ?_)
  match a with
  | ⟨0, _⟩ => show win0_1.index t (0 : Fin 2) * 257 + 1 * (j 0).val = (j 0).val; rw [e0]; omega
  | ⟨1, _⟩ => show win0_1.index t (1 : Fin 2) * 512 + 1 * (j 1).val = (j 1).val; rw [e1]; omega

/-- The second packed matrix's block at any point is the matrix. -/
theorem packed2_block (c : Dev nD) (t : Fin cfg0.N) :
    (iblk m c 2 t : Vec Ideal S513x512 .f32) = m ((c : Thread nD τ).loc main_arg2) := by
  obtain ⟨-, -, -, -, e0, e1, -⟩ := block_index t
  funext j
  unfold iblk
  rw [View.read_apply]
  show V m c main_arg2 _ = m ((c : Thread nD τ).loc main_arg2) _
  unfold V
  refine congrArg _ (funext fun a => Fin.ext ?_)
  match a with
  | ⟨0, _⟩ => show win0_2.index t (0 : Fin 2) * 513 + 1 * (j 0).val = (j 0).val; rw [e0]; omega
  | ⟨1, _⟩ => show win0_2.index t (1 : Fin 2) * 512 + 1 * (j 1).val = (j 1).val; rw [e1]; omega

/-- The third packed matrix's block at any point is the matrix. -/
theorem packed3_block (c : Dev nD) (t : Fin cfg0.N) :
    (iblk m c 3 t : Vec Ideal S513x256 .f32) = m ((c : Thread nD τ).loc main_arg3) := by
  obtain ⟨-, -, -, -, -, -, e0, e1, -⟩ := block_index t
  funext j
  unfold iblk
  rw [View.read_apply]
  show V m c main_arg3 _ = m ((c : Thread nD τ).loc main_arg3) _
  unfold V
  refine congrArg _ (funext fun a => Fin.ext ?_)
  match a with
  | ⟨0, _⟩ => show win0_3.index t (0 : Fin 2) * 513 + 1 * (j 0).val = (j 0).val; rw [e0]; omega
  | ⟨1, _⟩ => show win0_3.index t (1 : Fin 2) * 256 + 1 * (j 1).val = (j 1).val; rw [e1]; omega

/-- The body's value before the slices, for a block that is rows r … of the states, at block entry j, is the head
    of the whole batch at the entry r rows further down. -/
theorem head_entry (x0 : Vec Ideal S4096x256 .f32) (W1 : Vec Ideal S257x512 .f32) (W2 : Vec Ideal S513x512 .f32)
    (Wh : Vec Ideal S513x256 .f32) (X : Vec Ideal S16384x256 .f32) (r : ℕ) (hx : RowBlk r x0 X)
    (j : S4096x256.Idx) (i : S16384x256.Idx) (h0 : (i 0).val = r + (j 0).val) (h1 : (i 1).val = (j 1).val) :
    k0_pay1 (F := Ideal) (View.ld x0 r0_0) (View.ld W1 r0_1) (View.ld W1 r0_2) (View.ld W2 r0_3) (View.ld W2 r0_4) (View.ld Wh r0_5) (View.ld Wh r0_6) j
      = headAll X W1 W2 Wh i := by
  rw [pay_head, View.ld_unit_zero (S := S4096x256) zeroOff]
  exact (head_rowBlk hx _ _ _ _ _ _).apply j i h0 h1

/-! ## What each point writes back -/

/-- Point t writes back block t of the means. -/
theorem flushed_mu (c : Dev nD) (t : Fin cfg0.N) :
    (dats m 0 c).flushed 4 t = ((cfg0.win 4).blk t).view.read (Elt Ideal)
      (muAll (m ((c : Thread nD τ).loc main_arg0)) (m ((c : Thread nD τ).loc main_arg1)) (m ((c : Thread nD τ).loc main_arg2)) (m ((c : Thread nD τ).loc main_arg3))) := by
  obtain ⟨-, -, -, -, -, -, -, -, e0, e1, -⟩ := block_index t
  rw [flushed4]
  unfold out0_4
  rw [packed1_block m c t, packed2_block m c t, packed3_block m c t]
  funext j
  show View.canon _ j = muAll _ _ _ _ (((cfg0.win 4).blk t).view.emb j)
  rw [canon4_eq]
  refine head_entry _ _ _ _ _ (4096 * t.val) (states_block m c t) _ _ ?_ ?_
  · show win0_4.index t (0 : Fin 2) * 4096 + 1 * (j 0).val = 4096 * t.val + (j 0).val
    rw [e0]; omega
  · show win0_4.index t (1 : Fin 2) * 128 + 1 * (j 1).val = (j 1).val
    rw [e1]; omega

/-- Point t writes back block t of the clamped log-deviations. -/
theorem flushed_sigma (c : Dev nD) (t : Fin cfg0.N) :
    (dats m 0 c).flushed 5 t = ((cfg0.win 5).blk t).view.read (Elt Ideal)
      (sigmaAll (m ((c : Thread nD τ).loc main_arg0)) (m ((c : Thread nD τ).loc main_arg1)) (m ((c : Thread nD τ).loc main_arg2)) (m ((c : Thread nD τ).loc main_arg3))) := by
  obtain ⟨-, -, -, -, -, -, -, -, -, -, e0, e1⟩ := block_index t
  rw [flushed5]
  unfold out0_5
  rw [packed1_block m c t, packed2_block m c t, packed3_block m c t]
  funext j
  show View.canon _ j = sigmaAll _ _ _ _ (((cfg0.win 5).blk t).view.emb j)
  rw [canon5_eq]
  show FloatOps.minimumf _ (FloatOps.maximumf _ _) = FloatOps.minimumf _ (FloatOps.maximumf _ _)
  refine congrArg _ (congrArg _ ?_)
  refine head_entry _ _ _ _ _ (4096 * t.val) (states_block m c t) _ _ ?_ ?_
  · show win0_5.index t (0 : Fin 2) * 4096 + 1 * (j 0).val = 4096 * t.val + (j 0).val
    rw [e0]; omega
  · show win0_5.index t (1 : Fin 2) * 128 + 1 * (j 1).val + 128 = (j 1).val + 128
    rw [e1]; omega

/-! ## The blocks tile the arrays -/

/-- An index of the means is in point t's block iff each coordinate is in the block's range. -/
theorem mem_block_mu (t : Fin cfg0.N) (i : S16384x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v0_0).slice (win0_4.rect t)).set ↔ _
  rw [View.set_slice_whole, Rect.mem_set_unit]
  exact Iff.rfl

theorem mem_block_sigma (t : Fin cfg0.N) (i : S16384x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v0_1).slice (win0_5.rect t)).set ↔ _
  rw [View.set_slice_whole, Rect.mem_set_unit]
  exact Iff.rfl

theorem grid_points : cfg0.N = 4 := rfl

/-- Row p of the means is in the block of point p / 4096. -/
theorem cover_mu (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  let t : Fin cfg0.N := ⟨(i 0).val / 4096, by rw [grid_points]; omega⟩
  obtain ⟨-, -, -, -, -, -, -, -, e0, e1, -⟩ := block_index t
  have ht : t.val = (i 0).val / 4096 := rfl
  refine ⟨t, flush0_4 t, ?_⟩
  rw [mem_block_mu]
  intro a
  match a with
  | ⟨0, _⟩ => show win0_4.index t (0 : Fin 2) * 4096 ≤ (i 0).val ∧ (i 0).val < win0_4.index t (0 : Fin 2) * 4096 + 4096; rw [e0, ht]; omega
  | ⟨1, _⟩ => show win0_4.index t (1 : Fin 2) * 128 ≤ (i 1).val ∧ (i 1).val < win0_4.index t (1 : Fin 2) * 128 + 128; rw [e1]; omega

theorem cover_sigma (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  let t : Fin cfg0.N := ⟨(i 0).val / 4096, by rw [grid_points]; omega⟩
  obtain ⟨-, -, -, -, -, -, -, -, -, -, e0, e1⟩ := block_index t
  have ht : t.val = (i 0).val / 4096 := rfl
  refine ⟨t, flush0_5 t, ?_⟩
  rw [mem_block_sigma]
  intro a
  match a with
  | ⟨0, _⟩ => show win0_5.index t (0 : Fin 2) * 4096 ≤ (i 0).val ∧ (i 0).val < win0_5.index t (0 : Fin 2) * 4096 + 4096; rw [e0, ht]; omega
  | ⟨1, _⟩ => show win0_5.index t (1 : Fin 2) * 128 ≤ (i 1).val ∧ (i 1).val < win0_5.index t (1 : Fin 2) * 128 + 128; rw [e1]; omega

/-! ## The arrays after the run -/

/-- The first result array ends holding the means of the whole batch. -/
theorem final_mu (c : Dev nD) : (dats m 0 c).arrAt 4 cfg0.N
    = muAll (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_mu m c t) cover_mu

/-- The second result array ends holding the clamped log-deviations of the whole batch. -/
theorem final_sigma (c : Dev nD) : (dats m 0 c).arrAt 5 cfg0.N
    = sigmaAll (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_sigma m c t) cover_sigma

/-- The kernel's run: both result arrays as functions of the arguments, the arguments unchanged. -/
theorem run : θ_run defs (onTc (τ := τ) (main (F := Ideal))) ⟨m, fun _ => 0, ρ⟩ fun r => ∀ c : Dev nD,
      r.2.mem ((c : Thread nD τ).loc main_v0_0)
        = muAll (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = sigmaAll (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_mu m c), (h c).2.1.trans (final_sigma m c), (h c).2.2⟩)
    (run_blocks m ρ)

end Cert.KernelIdeal.Blocks

end
-- ==== Proof.ReferenceBlocks.lean ====
/-
  What the reference's two result arrays hold after its run: the means and the clamped log-deviations of the whole batch.

  The reference's grid has 32 points; point t works on rows 512·t … 512·t + 511 of the states and on the three packed
  weight matrices whole, and leaves in its one output block the head of its 512 rows with the columns from 128 on
  clamped to [-20, 2] (a select on the column number). The 32 blocks tile the 16384×256 array; the two results are
  then its columns 0 … 127 (below 128: the head itself) and 128 … 255 (from 128 on: the clamped head).
-/
import proofs.«122329_g2000406044886496_pallasbulk_952_17_alg».proof.Proof.Gen.ReferenceIdeal.Frame
import proofs.«122329_g2000406044886496_pallasbulk_952_17_alg».proof.Proof.ActorSpec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.ReferenceIdeal.Blocks

open Cert.ReferenceIdeal Cert.ReferenceIdeal.Gen Cert.Actor Cert.LibRowBlock

variable (m : (ℓ : Loc nD τ sig) → Buf (Elt Ideal) ℓ) (ρ : Dev nD → PrngReg)

theorem zeroOff : (![0, 0] : Fin 2 → Nat) = fun _ => 0 := funext fun a => by fin_cases a <;> rfl

/-- The clamp to [-20, 2]. -/
abbrev clamp (v : Ideal .f32) : Ideal .f32 :=
  FloatOps.minimumf (Scalar.ofBits (F := Ideal) .f32 0x40000000#32) (FloatOps.maximumf (Scalar.ofBits (F := Ideal) .f32 0xC1A00000#32) v)

/-- Whether a column number (below 256) is at least 128, as the one-bit word of the signed comparison. -/
abbrev fromCol128 (n : ℕ) : BitVec 1 := IntOp.cmpi .sge (BitVec.ofNat 32 n) 128#32

theorem fromCol128_eq : ∀ n : Fin 256, fromCol128 n.val = if 128 ≤ n.val then 1#1 else 0#1 := by decide +kernel

/-- The one array the reference's kernel writes: the head with the columns from 128 on clamped. -/
def outAll (X : Vec Ideal (Sh 16384 256) .f32) (W1 : Vec Ideal (Sh 257 512) .f32) (W2 : Vec Ideal (Sh 513 512) .f32)
    (Wh : Vec Ideal (Sh 513 256) .f32) : Vec Ideal (Sh 16384 256) .f32 := fun i =>
  Scalar.select (fromCol128 (i 1).val) (clamp (headAll X W1 W2 Wh i)) (headAll X W1 W2 Wh i)

/-- The body's stored value: the head of the block's 512 rows, clamped where the column number is at least 128. -/
theorem pay_out (v0 : Vec Ideal S512x256 .f32) (v1 : Vec Ideal S256x512 .f32) (v3 : Vec Ideal S1x512 .f32)
    (v8 : Vec Ideal S512x512 .f32) (v10 : Vec Ideal S1x512 .f32) (v15 : Vec Ideal S512x256 .f32) (v17 : Vec Ideal S1x256 .f32)
    (j : S512x256.Idx) :
    k0_pay1 (F := Ideal) v0 v1 v3 v8 v10 v15 v17 j
      = Scalar.select (fromCol128 (j 1).val) (clamp (head 512 v0 v1 v3 v8 v10 v15 v17 j)) (head 512 v0 v1 v3 v8 v10 v15 v17 j) := by
  show Scalar.select (IntOp.cmpi .sge (iota .tc S512x256 32 [1] iota_S512x256_d1_w32 j) 128#32) _ _ = _
  rw [iota_single_apply]
  rfl

/-- Where each window's block sits at grid point t. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The states' block at point t is rows 512·t … of the states. -/
theorem states_block (c : Dev nD) (t : Fin cfg0.N) :
    RowBlk (512 * t.val) (iblk m c 0 t : Vec Ideal S512x256 .f32) (m ((c : Thread nD τ).loc main_arg0) : Vec Ideal S16384x256 .f32) := by
  obtain ⟨e0, e1, -⟩ := block_index t
  intro p q h
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 256 + 1 * q.val = q.val; rw [e1]; omega

/-- The first packed matrix's block at any point is the matrix. -/
theorem packed1_block (c : Dev nD) (t : Fin cfg0.N) :
    (iblk m c 1 t : Vec Ideal S257x512 .f32) = m ((c : Thread nD τ).loc main_arg1) := by
  obtain ⟨-, -, e0, e1, -⟩ := block_index t
  funext j
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 257 + 1 * (j 0).val = (j 0).val; rw [e0]; omega
  | ⟨1, _⟩ => show win0_1.index t (1 : Fin 2) * 512 + 1 * (j 1).val = (j 1).val; rw [e1]; omega

/-- The second packed matrix's block at any point is the matrix. -/
theorem packed2_block (c : Dev nD) (t : Fin cfg0.N) :
    (iblk m c 2 t : Vec Ideal S513x512 .f32) = m ((c : Thread nD τ).loc main_arg2) := by
  obtain ⟨-, -, -, -, e0, e1, -⟩ := block_index t
  funext j
  unfold iblk
  rw [View.read_apply]
  show V m c main_arg2 _ = m ((c : Thread nD τ).loc main_arg2) _
  rw [V_main_arg2]
  refine congrArg _ (funext fun a => Fin.ext ?_)
  match a with
  | ⟨0, _⟩ => show win0_2.index t (0 : Fin 2) * 513 + 1 * (j 0).val = (j 0).val; rw [e0]; omega
  | ⟨1, _⟩ => show win0_2.index t (1 : Fin 2) * 512 + 1 * (j 1).val = (j 1).val; rw [e1]; omega

/-- The third packed matrix's block at any point is the matrix. -/
theorem packed3_block (c : Dev nD) (t : Fin cfg0.N) :
    (iblk m c 3 t : Vec Ideal S513x256 .f32) = m ((c : Thread nD τ).loc main_arg3) := by
  obtain ⟨-, -, -, -, -, -, e0, e1, -⟩ := block_index t
  funext j
  unfold iblk
  rw [View.read_apply]
  show V m c main_arg3 _ = m ((c : Thread nD τ).loc main_arg3) _
  rw [V_main_arg3]
  refine congrArg _ (funext fun a => Fin.ext ?_)
  match a with
  | ⟨0, _⟩ => show win0_3.index t (0 : Fin 2) * 513 + 1 * (j 0).val = (j 0).val; rw [e0]; omega
  | ⟨1, _⟩ => show win0_3.index t (1 : Fin 2) * 256 + 1 * (j 1).val = (j 1).val; rw [e1]; omega

/-- The body's stored value, for a block that is rows r … of the states, at block entry j, is the whole array's
    entry r rows further down. -/
theorem out_entry (x0 : Vec Ideal S512x256 .f32) (W1 : Vec Ideal S257x512 .f32) (W2 : Vec Ideal S513x512 .f32)
    (Wh : Vec Ideal S513x256 .f32) (X : Vec Ideal S16384x256 .f32) (r : ℕ) (hx : RowBlk r x0 X)
    (j : S512x256.Idx) (i : S16384x256.Idx) (h0 : (i 0).val = r + (j 0).val) (h1 : (i 1).val = (j 1).val) :
    k0_pay1 (F := Ideal) (View.ld x0 r0_0) (View.ld W1 r0_1) (View.ld W1 r0_2) (View.ld W2 r0_3) (View.ld W2 r0_4) (View.ld Wh r0_5) (View.ld Wh r0_6) j
      = outAll X W1 W2 Wh i := by
  have hh : head 512 (View.ld x0 r0_0) (View.ld W1 r0_1) (View.ld W1 r0_2) (View.ld W2 r0_3) (View.ld W2 r0_4) (View.ld Wh r0_5) (View.ld Wh r0_6) j
      = headAll X W1 W2 Wh i := by
    rw [View.ld_unit_zero (S := S512x256) zeroOff]
    exact (head_rowBlk hx _ _ _ _ _ _).apply j i h0 h1
  rw [pay_out, hh]
  unfold outAll
  rw [h1]

/-! ## What each point writes back, and the array after the region -/

/-- Point t writes back block t of the array. -/
theorem flushed_out (c : Dev nD) (t : Fin cfg0.N) :
    (dats m 0 c).flushed 4 t = ((cfg0.win 4).blk t).view.read (Elt Ideal)
      (outAll (m ((c : Thread nD τ).loc main_arg0)) (m ((c : Thread nD τ).loc main_arg1)) (m ((c : Thread nD τ).loc main_arg2)) (m ((c : Thread nD τ).loc main_arg3))) := by
  obtain ⟨-, -, -, -, -, -, -, -, e0, e1⟩ := block_index t
  show (cfg0.win 4).cut (grid0.coords t) ((dats m 0 c).after 4 t) = _
  rw [after0_4]
  unfold out0_4
  rw [packed1_block m c t, packed2_block m c t, packed3_block m c t, View.canon_unit_zero zeroOff]
  funext j
  show k0_pay1 (F := Ideal) _ _ _ _ _ _ _ j = outAll _ _ _ _ (((cfg0.win 4).blk t).view.emb j)
  refine out_entry _ _ _ _ _ (512 * t.val) (states_block m c t) _ _ ?_ ?_
  · show win0_4.index t (0 : Fin 2) * 512 + 1 * (j 0).val = 512 * t.val + (j 0).val
    rw [e0]; omega
  · show win0_4.index t (1 : Fin 2) * 256 + 1 * (j 1).val = (j 1).val
    rw [e1]; omega

theorem mem_block_out (t : Fin cfg0.N) (i : S16384x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_call0_v0).slice (win0_4.rect t)).set ↔ _
  rw [View.set_slice_whole, Rect.mem_set_unit]
  exact Iff.rfl

theorem grid_points : cfg0.N = 32 := rfl

/-- Row p of the array is in the block of point p / 512. -/
theorem cover_out (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  let t : Fin cfg0.N := ⟨(i 0).val / 512, by rw [grid_points]; omega⟩
  obtain ⟨-, -, -, -, -, -, -, -, e0, e1⟩ := block_index t
  have ht : t.val = (i 0).val / 512 := rfl
  refine ⟨t, flush0_4 t, ?_⟩
  rw [mem_block_out]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 256 ≤ (i 1).val ∧ (i 1).val < win0_4.index t (1 : Fin 2) * 256 + 256; rw [e1]; omega

/-- The array the region writes ends holding the head with its columns from 128 on clamped. -/
theorem final_out (c : Dev nD) : (dats m 0 c).arrAt 4 cfg0.N
    = outAll (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_out m c t) cover_out

/-! ## The two slices after the region -/

/-- Below column 128 the array holds the head itself. -/
theorem out_mu (X : Vec Ideal (Sh 16384 256) .f32) (W1 : Vec Ideal (Sh 257 512) .f32) (W2 : Vec Ideal (Sh 513 512) .f32)
    (Wh : Vec Ideal (Sh 513 256) .f32) (i : (Sh 16384 128).Idx) : outAll X W1 W2 Wh (muCol i) = muAll X W1 W2 Wh i := by
  have hq : (i 1).val < 128 := (i 1).isLt
  have hc : fromCol128 (i 1).val = if 128 ≤ (i 1).val then 1#1 else 0#1 := fromCol128_eq ⟨(i 1).val, by omega⟩
  rw [if_neg (by omega)] at hc
  show Scalar.select (fromCol128 (i 1).val) _ _ = _
  rw [hc]
  rfl

/-- From column 128 on the array holds the clamped head. -/
theorem out_sigma (X : Vec Ideal (Sh 16384 256) .f32) (W1 : Vec Ideal (Sh 257 512) .f32) (W2 : Vec Ideal (Sh 513 512) .f32)
    (Wh : Vec Ideal (Sh 513 256) .f32) (i : (Sh 16384 128).Idx) : outAll X W1 W2 Wh (sigmaCol i) = sigmaAll X W1 W2 Wh i := by
  have hq : (i 1).val < 128 := (i 1).isLt
  have hc : fromCol128 ((i 1).val + 128) = if 128 ≤ (i 1).val + 128 then 1#1 else 0#1 := fromCol128_eq ⟨(i 1).val + 128, by omega⟩
  rw [if_pos (by omega)] at hc
  show Scalar.select (fromCol128 ((i 1).val + 128)) _ _ = _
  rw [hc]
  rfl

/-- The array the region wrote, as the lines after it find it. -/
theorem region_array (c : Dev nD) :
    Pipeline.withArrays spec0 c (V0 m c) (fun w => (dats m 0 c).arrAt w cfg0.N) (Proc.devRef .tc main_call0_v0)
      = outAll (m ((c : Thread nD τ).loc main_arg0)) (m ((c : Thread nD τ).loc main_arg1)) (m ((c : Thread nD τ).loc main_arg2)) (m ((c : Thread nD τ).loc main_arg3)) :=
  (Pipeline.withArrays_arr spec0 launch0.win.arr_inj c _ _ 4).trans (final_out m c)

/-- Columns 0 … 127 of a 16384×256 array, read at an entry. -/
theorem slice_low (A : Vec Ideal S16384x256 .f32) (i : S16384x128.Idx) :
    extractStridedSlice S16384x128 ![0, 0] A slices_S16384x256_S16384x128_0_0 i = A (muCol i) :=
  extractStridedSlice_apply ![0, 0] _ _ i (muCol i) fun a => by
    match a with
    | ⟨0, _⟩ => show (i 0).val = 0 + (i 0).val; omega
    | ⟨1, _⟩ => show (i 1).val = 0 + (i 1).val; omega

/-- Columns 128 … 255 of a 16384×256 array, read at an entry. -/
theorem slice_high (A : Vec Ideal S16384x256 .f32) (i : S16384x128.Idx) :
    extractStridedSlice S16384x128 ![0, 128] A slices_S16384x256_S16384x128_0_128 i = A (sigmaCol i) :=
  extractStridedSlice_apply ![0, 128] _ _ i (sigmaCol i) fun a => by
    match a with
    | ⟨0, _⟩ => show (i 0).val = 0 + (i 0).val; omega
    | ⟨1, _⟩ => show (i 1).val + 128 = 128 + (i 1).val; omega

/-- The first result: columns 0 … 127 of the array the region wrote. -/
theorem tail_mu (c : Dev nD) :
    Pipeline.afterTail₀ cfgs (dats m) 0 (V0 m) [hostOps1] c main_v0_0
      = muAll (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v0_0) = _
  after_results
  simp only [StableHlo.TRef.toBuf, StableHlo.TRef.ofBuf, cast_eq]
  rw [region_array m c]
  exact funext fun (i : S16384x128.Idx) => (slice_low _ i).trans (out_mu _ _ _ _ i)

/-- The second result: columns 128 … 255 of the array the region wrote. -/
theorem tail_sigma (c : Dev nD) :
    Pipeline.afterTail₀ cfgs (dats m) 0 (V0 m) [hostOps1] c main_v0_1
      = sigmaAll (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v0_1) = _
  after_results
  simp only [StableHlo.TRef.toBuf, StableHlo.TRef.ofBuf, cast_eq]
  rw [region_array m c]
  exact funext fun (i : S16384x128.Idx) => (slice_high _ i).trans (out_sigma _ _ _ _ i)

/-- The two results are no array of the region: buffers the lines after it write. -/
theorem mu_rest : main_v0_0 ∈ Pipeline.restRefs sig cfg0.spec :=
  Pipeline.mem_restRefs_of main_v0_0 rfl (by decide)
theorem sigma_rest : main_v0_1 ∈ Pipeline.restRefs sig cfg0.spec :=
  Pipeline.mem_restRefs_of main_v0_1 rfl (by decide)

/-- The reference's run: both result arrays as functions of the arguments, the arguments unchanged. -/
theorem run : θ_run defs (onTc (τ := τ) (main (F := Ideal))) ⟨m, fun _ => 0, ρ⟩ fun r => ∀ c : Dev nD,
      r.2.mem ((c : Thread nD τ).loc main_v0_0)
        = muAll (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = sigmaAll (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).2 main_v0_0 mu_rest).trans (tail_mu m c),
      ((h c).2 main_v0_1 sigma_rest).trans (tail_sigma m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.Blocks

end
-- ==== Proof.lean ====
/-
  The kernel and the reference compute the same actor network.

  Both run the three dense layers of the packed weights on blocks of rows of the states — the kernel on four blocks
  of 4096 rows with its operands passed through a narrower float format (the identity on the extended reals), writing
  the means and the clamped log-deviations as two arrays; the reference on 32 blocks of 512 rows, writing one
  16384×256 array whose columns from 128 on are clamped, which two slices then split. A dense layer acts on each row
  separately, so either way the arrays end as the same two functions of the arguments, `Actor.muAll` and
  `Actor.sigmaAll`: the same sums in the same order, with no law of arithmetic needed and nothing asked of the
  inputs. The three programs' runs leave their arguments unchanged; the idealized kernel is the kernel's own text
  read over the extended reals.
-/
import proofs.«122329_g2000406044886496_pallasbulk_952_17_alg».proof.Defs
import proofs.«122329_g2000406044886496_pallasbulk_952_17_alg».proof.Proof.Gen.Kernel
import proofs.«122329_g2000406044886496_pallasbulk_952_17_alg».proof.Proof.Gen.Kernel.Frame
import proofs.«122329_g2000406044886496_pallasbulk_952_17_alg».proof.Proof.Gen.KernelIdeal
import proofs.«122329_g2000406044886496_pallasbulk_952_17_alg».proof.Proof.Gen.KernelIdeal.Frame
import proofs.«122329_g2000406044886496_pallasbulk_952_17_alg».proof.Proof.Gen.KernelIdeal.Value
import proofs.«122329_g2000406044886496_pallasbulk_952_17_alg».proof.Proof.Gen.ReferenceIdeal
import proofs.«122329_g2000406044886496_pallasbulk_952_17_alg».proof.Proof.Gen.ReferenceIdeal.Frame
import proofs.«122329_g2000406044886496_pallasbulk_952_17_alg».proof.Proof.Gen.Pre_finite_inputs
import proofs.«122329_g2000406044886496_pallasbulk_952_17_alg».proof.Proof.KernelBlocks
import proofs.«122329_g2000406044886496_pallasbulk_952_17_alg».proof.Proof.ReferenceBlocks
import Idealize.ShloMosaic.Adequacy
import Idealize.ShloMosaic.Init

noncomputable section

namespace Cert.Proof

open Idealize.ShloMosaic Idealize.SL.Sem

/-- Run from memories that agree on the arguments, the idealized kernel and the idealized reference both end with
    the means and the clamped log-deviations of the whole batch in their two result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Blocks.run m ρ, ?_⟩
  refine (θ_run Cert.ReferenceIdeal.defs _ _).mono (fun r h c => ?_) (Cert.ReferenceIdeal.Blocks.run m' ρ')
  obtain ⟨a0, a1, a2, a3⟩ := hagree c
  rw [← a0, ← a1, ← a2, ← a3]
  exact h c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
